-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S512x512 : Shape := ⟨2, ![512, 512]⟩
abbrev S512 : Shape := ⟨1, ![512]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_arg8 : FVec F S512x512 .f32) (main_arg9 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg4 : FVec F S512x512 .f32) (main_arg5 : FVec F S512 .f32) (main_arg6 : FVec F S512x512 .f32) (main_arg7 : FVec F S512 .f32) (main_arg8 : FVec F S512x512 .f32) (main_arg9 : FVec F S512 .f32) (main_v13 : IVec S_ 1) (main_v16 : IVec S32x512x1024 1) : IVec S_ 1 :=
  let main_c_5 : IVec S_ 1 := constantI S_ 1 1#1
  let main_v17 : IVec S_ 1 := (fun x v => Host.reduce IntOp.andi x v reducesTo_S32x512x1024_S_d0_1_2 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S32x512x1024 .f32) (main_arg1 : FVec F S32x512x1024 .f32) (main_arg2 : FVec F S32x512x1024 .f32) (main_arg3 : FVec F S32x512x1024 .f32) (main_arg4 : FVec F S512x512 .f32) (main_arg5 : FVec F S512 .f32) (main_arg6 : FVec F S512x512 .f32) (main_arg7 : FVec F S512 .f32) (main_arg8 : FVec F S512x512 .f32) (main_arg9 : FVec F S512 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S32x512x1024 .f32 := Host.absf main_arg1
  let main_cst_0 : FVec F S_ .f32 := constant S_ .f32 0x7F800000#32
  let main_v5 : FVec F S32x512x1024 .f32 := broadcastInDim S32x512x1024 ![] bcast_S_S32x512x1024 main_cst_0
  let main_v6 : IVec S32x512x1024 1 := cmpf .olt main_v4 main_v5
  let main_c_1 : IVec S_ 1 := constantI S_ 1 1#1
  let main_v7 : IVec S_ 1 := (fun x v => Host.reduce IntOp.andi x v reducesTo_S32x512x1024_S_d0_1_2 h_S_) main_v6 main_c_1
  let main_v8 : IVec S_ 1 := andi main_v3 main_v7
  let main_v9 : FVec F S32x512x1024 .f32 := Host.absf main_arg2
  let main_cst_2 : FVec F S_ .f32 := constant S_ .f32 0x7F800000#32
  let main_v10 : FVec F S32x512x1024 .f32 := broadcastInDim S32x512x1024 ![] bcast_S_S32x512x1024 main_cst_2
  let main_v11 : IVec S32x512x1024 1 := cmpf .olt main_v9 main_v10
  let main_c_3 : IVec S_ 1 := constantI S_ 1 1#1
  let main_v12 : IVec S_ 1 := (fun x v => Host.reduce IntOp.andi x v reducesTo_S32x512x1024_S_d0_1_2 h_S_) main_v11 main_c_3
  let main_v13 : IVec S_ 1 := andi main_v8 main_v12
  let main_v14 : FVec F S32x512x1024 .f32 := Host.absf main_arg3
  let main_cst_4 : FVec F S_ .f32 := constant S_ .f32 0x7F800000#32
  let main_v15 : FVec F S32x512x1024 .f32 := broadcastInDim S32x512x1024 ![] bcast_S_S32x512x1024 main_cst_4
  let main_v16 : IVec S32x512x1024 1 := cmpf .olt main_v14 main_v15
  fn_part1 (F := F) main_arg4 main_arg5 main_arg6 main_arg7 main_arg8 main_arg9 main_v13 main_v16
-- ==== Kernel.lean ====
abbrev S32x512x1024 : Shape := ⟨3, ![32, 512, 1024]⟩
abbrev S512x512 : Shape := ⟨2, ![512, 512]⟩
abbrev S512 : Shape := ⟨1, ![512]⟩
abbrev S512x1 : Shape := ⟨2, ![512, 1]⟩
abbrev S1x512x1024 : Shape := ⟨3, ![1, 512, 1024]⟩
abbrev S512x1024 : Shape := ⟨2, ![512, 1024]⟩

abbrev nBuf : Space → Nat
  | .hbm => 14
  | .vmem => 16
  | .smem => 0
  | _ => 0

abbrev bufTy : (tb : Table) → Fin (tcTables nBuf tb) → BufTy
  | .hbm, ⟨0, _⟩ => ⟨S32x512x1024, .f32⟩
  | .hbm, ⟨1, _⟩ => ⟨S32x512x1024, .f32⟩
  | .hbm, ⟨2, _⟩ => ⟨S32x512x1024, .f32⟩
  | .hbm, ⟨3, _⟩ => ⟨S32x512x1024, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S32x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S1x512x1024, .f32⟩
  | .local _ .vmem, ⟨15, _⟩ => ⟨S1x512x1024, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S512_S512x1 : S512.ShapeCasts S512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  reduces_S512x512_S512 : S512x512.Reduces [1] S512
  broadcasts_S512x1_S512x512 : S512x1.Broadcasts S512x512
  shapeCasts_S512x1024_S1x512x1024 : S512x1024.ShapeCasts S1x512x1024
  dot_S512x512_S512x1024_S512x1024_1_0_0_1_n_n_wf : DotDims.WF S512x512 S512x1024 S512x1024 [1] [0] [0] [1] [] []
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x512x1024.size a
  hwx0_0 : ∀ i : grid0.Coords, EltTy.bits .f32 = 32 ∨ (Rect.block (s := S32x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S32x512x1024.size a
  hwx0_1 : ∀ i : grid0.Coords, EltTy.bits .f32 = 32 ∨ (Rect.block (s := S32x512x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S32x512x1024.size a
  hwx0_2 : ∀ i : grid0.Coords, EltTy.bits .f32 = 32 ∨ (Rect.block (s := S32x512x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S32x512x1024.size a
  hwx0_3 : ∀ i : grid0.Coords, EltTy.bits .f32 = 32 ∨ (Rect.block (s := S32x512x1024) S1x512x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S512x1.size a
  hwx0_7 : ∀ i : grid0.Coords, EltTy.bits .f32 = 32 ∨ (Rect.block (s := S512x1) S512x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x1.size a ≤ S512x1.size a
  hwx0_8 : ∀ i : grid0.Coords, EltTy.bits .f32 = 32 ∨ (Rect.block (s := S512x1) S512x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x1.size a ≤ S512x1.size a
  hwx0_9 : ∀ i : grid0.Coords, EltTy.bits .f32 = 32 ∨ (Rect.block (s := S512x1) S512x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512x1024.size a ≤ S32x512x1024.size a
  hwx0_10 : ∀ i : grid0.Coords, EltTy.bits .f32 = 32 ∨ (Rect.block (s := S32x512x1024) S1x512x1024.size (cc0_transform_10 i) (hinb0_10 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S512x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S512x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S512x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1x512x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S32x512x1024 : Shape := ⟨3, ![32, 512, 1024]⟩
abbrev S512x512 : Shape := ⟨2, ![512, 512]⟩
abbrev S512 : Shape := ⟨1, ![512]⟩
abbrev S32x1024x512 : Shape := ⟨3, ![32, 1024, 512]⟩
abbrev S1x1x512 : Shape := ⟨3, ![1, 1, 512]⟩
abbrev S32x512x512 : Shape := ⟨3, ![32, 512, 512]⟩
abbrev S_ : Shape := ⟨0, ![]⟩
abbrev S32x512 : Shape := ⟨2, ![32, 512]⟩
abbrev S32x512x1 : Shape := ⟨3, ![32, 512, 1]⟩

abbrev nBuf : Space → Nat
  | .hbm => 48
  | .vmem => 0
  | .smem => 0
  | _ => 0

abbrev bufTy : (tb : Table) → Fin (tcTables nBuf tb) → BufTy
  | .hbm, ⟨0, _⟩ => ⟨S32x512x1024, .f32⟩
  | .hbm, ⟨1, _⟩ => ⟨S32x512x1024, .f32⟩
  | .hbm, ⟨2, _⟩ => ⟨S32x512x1024, .f32⟩
  | .hbm, ⟨3, _⟩ => ⟨S32x512x1024, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S32x1024x512, .f32⟩
  | .hbm, ⟨11, _⟩ => ⟨S32x1024x512, .f32⟩
  | .hbm, ⟨12, _⟩ => ⟨S32x1024x512, .f32⟩
  | .hbm, ⟨13, _⟩ => ⟨S32x1024x512, .f32⟩
  | .hbm, ⟨14, _⟩ => ⟨S32x1024x512, .f32⟩
  | .hbm, ⟨15, _⟩ => ⟨S1x1x512, .f32⟩
  | .hbm, ⟨16, _⟩ => ⟨S32x1024x512, .f32⟩
  | .hbm, ⟨17, _⟩ => ⟨S32x1024x512, .f32⟩
  | .hbm, ⟨18, _⟩ => ⟨S32x1024x512, .f32⟩
  | .hbm, ⟨19, _⟩ => ⟨S32x1024x512, .f32⟩
  | .hbm, ⟨20, _⟩ => ⟨S1x1x512, .f32⟩
  | .hbm, ⟨21, _⟩ => ⟨S32x1024x512, .f32⟩
  | .hbm, ⟨22, _⟩ => ⟨S32x1024x512, .f32⟩
  | .hbm, ⟨23, _⟩ => ⟨S32x1024x512, .f32⟩
  | .hbm, ⟨24, _⟩ => ⟨S32x1024x512, .f32⟩
  | .hbm, ⟨25, _⟩ => ⟨S1x1x512, .f32⟩
  | .hbm, ⟨26, _⟩ => ⟨S32x1024x512, .f32⟩
  | .hbm, ⟨27, _⟩ => ⟨S32x1024x512, .f32⟩
  | .hbm, ⟨28, _⟩ => ⟨S32x1024x512, .f32⟩
  | .hbm, ⟨29, _⟩ => ⟨S32x512x512, .f32⟩
  | .hbm, ⟨30, _⟩ => ⟨S_, .f32⟩
  | .hbm, ⟨31, _⟩ => ⟨S32x512x512, .f32⟩
  | .hbm, ⟨32, _⟩ => ⟨S32x512x512, .f32⟩
  | .hbm, ⟨33, _⟩ => ⟨S_, .f32⟩
  | .hbm, ⟨34, _⟩ => ⟨S32x512, .f32⟩
  | .hbm, ⟨35, _⟩ => ⟨S_, .f32⟩
  | .hbm, ⟨36, _⟩ => ⟨S32x512, .f32⟩
  | .hbm, ⟨37, _⟩ => ⟨S32x512, .f32⟩
  | .hbm, ⟨38, _⟩ => ⟨S32x512x1, .f32⟩
  | .hbm, ⟨39, _⟩ => ⟨S32x512x512, .f32⟩
  | .hbm, ⟨40, _⟩ => ⟨S32x512x512, .f32⟩
  | .hbm, ⟨41, _⟩ => ⟨S32x512x512, .f32⟩
  | .hbm, ⟨42, _⟩ => ⟨S_, .f32⟩
  | .hbm, ⟨43, _⟩ => ⟨S32x512, .f32⟩
  | .hbm, ⟨44, _⟩ => ⟨S32x512x1, .f32⟩
  | .hbm, ⟨45, _⟩ => ⟨S32x512x512, .f32⟩
  | .hbm, ⟨46, _⟩ => ⟨S32x512x512, .f32⟩
  | .hbm, ⟨47, _⟩ => ⟨S32x512x1024, .f32⟩
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  transposes_S32x512x1024_S32x1024x512_0_2_1 : S32x512x1024.Transposes [0, 2, 1] S32x1024x512
  bcast_S512_S1x1x512_2 : S512.BroadcastsInDim S1x1x512 (![2] : Fin 1 → Fin S1x1x512.rank)
  bcast_S1x1x512_S32x1024x512_0_1_2 : S1x1x512.BroadcastsInDim S32x1024x512 (![0, 1, 2] : Fin 3 → Fin S32x1024x512.rank)
  bcast_S_S32x512x512 : S_.BroadcastsInDim S32x512x512 (![] : Fin 0 → Fin S32x512x512.rank)
  reducesTo_S32x512x512_S32x512_d2 : S32x512x512.ReducesTo [2] S32x512
  h_S_ : 0 < S_.numel
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S32x512x1_S32x512x512_0_1_2 : S32x512x1.BroadcastsInDim S32x512x512 (![0, 1, 2] : Fin 3 → Fin S32x512x512.rank)
  dot_S32x1024x512_S512x512_S32x1024x512_2_1_01_0_n_n_wf : DotDims.WF S32x1024x512 S512x512 S32x1024x512 [2] [1] [0, 1] [0] [] []
  dot_S32x1024x512_S32x1024x512_S32x512x512_1_1_2_2_0_0_wf : DotDims.WF S32x1024x512 S32x1024x512 S32x512x512 [1] [1] [2] [2] [0] [0]
  dot_S32x512x512_S32x1024x512_S32x512x1024_2_2_1_1_0_0_wf : DotDims.WF S32x512x512 S32x1024x512 S32x512x1024 [2] [2] [1] [1] [0] [0]

variable [Facts₀]

def dot_S32x1024x512_S512x512_S32x1024x512_2_1_01_0_n_n : DotDims S32x1024x512 S512x512 S32x1024x512 where
  lhsContracting := [2]
  rhsContracting := [1]
  lhsNonContracting := [0, 1]
  rhsNonContracting := [0]
  lhsBatch := []
  rhsBatch := []
  wf := dot_S32x1024x512_S512x512_S32x1024x512_2_1_01_0_n_n_wf
def dot_S32x1024x512_S32x1024x512_S32x512x512_1_1_2_2_0_0 : DotDims S32x1024x512 S32x1024x512 S32x512x512 where
  lhsContracting := [1]
  rhsContracting := [1]
  lhsNonContracting := [2]
  rhsNonContracting := [2]
  lhsBatch := [0]
  rhsBatch := [0]
  wf := dot_S32x1024x512_S32x1024x512_S32x512x512_1_1_2_2_0_0_wf
def dot_S32x512x512_S32x1024x512_S32x512x1024_2_2_1_1_0_0 : DotDims S32x512x512 S32x1024x512 S32x512x1024 where
  lhsContracting := [2]
  rhsContracting := [2]
  lhsNonContracting := [1]
  rhsNonContracting := [1]
  lhsBatch := [0]
  rhsBatch := [0]
  wf := dot_S32x512x512_S32x1024x512_S32x512x1024_2_2_1_1_0_0_wf

class Facts : Prop extends Facts₀ where

variable [Facts]
-- ==== Proof.Spec.lean ====
/-
  The function both programs compute, on the extended reals.

  Everything happens slab by slab: for one batch index the programs see a slab `xs : 512 channels × 1024 positions` of the
  input, three gate slabs of the same extents, three 512 × 512 weight matrices and three bias vectors, and compute
  * three gated linear maps of the slab,
      q[d,t] = gq[d,t] · (Σ_c Wq[d,c] · xs[c,t] + bq[d]),   k and v likewise;
  * channel-by-channel energies  e[c,d] = Σ_t q[c,t] · k[d,t], scaled by one fixed constant;
  * a softmax of each row `c` over `d`: the row's maximum (a fold of `max` from −∞, then once more `max` with −∞,
    as both programs write it), exponentials of the differences, their sum, the quotient;
  * the output  out[c,t] = Σ_d attn[c,d] · v[d,t].
  The whole result array `G` reads slab `b` of each of the four big arrays at index `(b, c, t)`.
  The scale and −∞ are kept as the bit patterns both programs print: the same word on both sides is never evaluated.
-/
import Idealize.ShloMosaic.PureOps.Ideal
import Idealize.ShloMosaic.PureOps.Ideal.Laws
import Idealize.ShloMosaic.Lib.ValueIdx

noncomputable section

namespace Cert.GatedAttn

open Idealize.ShloMosaic Idealize.ShloMosaic.ValueIdx

/-- An array of 32 slabs of 512 channels by 1024 positions. -/
abbrev Arr3 : Type := (⟨3, ![32, 512, 1024]⟩ : Shape).Idx → EReal
/-- A 512 × 512 weight matrix. -/
abbrev Mat : Type := (⟨2, ![512, 512]⟩ : Shape).Idx → EReal
/-- A bias vector of 512 entries. -/
abbrev Bias : Type := (⟨1, ![512]⟩ : Shape).Idx → EReal

/-- One slab: 512 channels by 1024 positions. -/
abbrev Slab : Type := Fin 512 → Fin 1024 → EReal

/-- Slab `b` of a big array. -/
def slab (x : Arr3) (b : Fin 32) : Slab := fun c t => x (ix3 b c t)
/-- A weight matrix by row and column. -/
def mat (W : Mat) : Fin 512 → Fin 512 → EReal := fun d c => W (ix2 d c)
/-- A bias vector by entry. -/
def vec (v : Bias) : Fin 512 → EReal := fun d => v (ix1 d)

/-- The scale both programs multiply the energies by (the f32 nearest 1/√512, as a bit pattern). -/
abbrev scaleC : EReal := Ideal.ofBits .f32 0x3D3504F3#32
/-- −∞ as both programs print it. -/
abbrev negInf : EReal := Ideal.ofBits .f32 0xFF800000#32

/-- A gated linear map of a slab: `g[d,t] · (Σ_c W[d,c] · xs[c,t] + bias[d])`. -/
def projS (xs gs : Slab) (W : Fin 512 → Fin 512 → EReal) (bias : Fin 512 → EReal) : Slab :=
  fun d t => gs d t * ((∑ c : Fin 512, W d c * xs c t) + bias d)

/-- The scaled energy of channels `c` and `d`: `(Σ_t q[c,t] · k[d,t]) · scale`. -/
def energyS (q k : Slab) (c d : Fin 512) : EReal :=
  (∑ t : Fin 1024, q c t * k d t) * scaleC

/-- The maximum of a row of 512 extended reals, folded from −∞, and once more against −∞. -/
def rowMax (r : Fin 512 → EReal) : EReal :=
  max negInf ((Finset.univ : Finset (Fin 512)).fold max negInf r)

/-- The exponentials of a row's differences from its maximum. -/
def rowExp (r : Fin 512 → EReal) (d : Fin 512) : EReal := Ideal.exp (r d - rowMax r)

/-- The softmax of a row at `d`: the exponential over the row's sum of exponentials. -/
def softmax (r : Fin 512 → EReal) (d : Fin 512) : EReal := Ideal.div (rowExp r d) (∑ d' : Fin 512, rowExp r d')

/-- The output slab at channel `c`, position `t`: `Σ_d softmax(e[c,·])[d] · v[d,t]`. -/
def outS (xs gqs gks gvs : Slab) (Wq : Fin 512 → Fin 512 → EReal) (bq : Fin 512 → EReal)
    (Wk : Fin 512 → Fin 512 → EReal) (bk : Fin 512 → EReal) (Wv : Fin 512 → Fin 512 → EReal) (bv : Fin 512 → EReal)
    (c : Fin 512) (t : Fin 1024) : EReal :=
  ∑ d : Fin 512, softmax (energyS (projS xs gqs Wq bq) (projS xs gks Wk bk) c) d * projS xs gvs Wv bv d t

/-- The whole result array as one function of the ten argument arrays, in the programs' argument order:
    the input, the three gates, then weight and bias of the query, key and value maps. -/
def G (x gq gk gv : Arr3) (Wq : Mat) (bq : Bias) (Wk : Mat) (bk : Bias) (Wv : Mat) (bv : Bias) : Arr3 :=
  fun i => outS (slab x (i 0)) (slab gq (i 0)) (slab gk (i 0)) (slab gv (i 0))
    (mat Wq) (vec bq) (mat Wk) (vec bk) (mat Wv) (vec bv) (i 1) (i 2)

/-- `G` at explicit coordinates. -/
theorem G_ix3 (x gq gk gv : Arr3) (Wq : Mat) (bq : Bias) (Wk : Mat) (bk : Bias) (Wv : Mat) (bv : Bias)
    (b : Fin 32) (c : Fin 512) (t : Fin 1024) :
    G x gq gk gv Wq bq Wk bk Wv bv (ix3 b c t)
      = outS (slab x b) (slab gq b) (slab gk b) (slab gv b) (mat Wq) (vec bq) (mat Wk) (vec bk) (mat Wv) (vec bv) c t := rfl

end Cert.GatedAttn

end
-- ==== Proof.LibColumnLayout.lean ====
/-
  Column forms of the layout operations, read at an index: a vector of `a` entries cast to one column `[a, 1]`,
  and one column `[a, 1]` broadcast over `b` columns — the shapes a row-wise reduction kept as a column
  (a row maximum, a row sum) and a per-row bias pass through. Generic in the sizes, for any element type.
-/
import Idealize.ShloMosaic.Lib.ValueIdx
import Idealize.ShloMosaic.Lib.Pipeline.Value

namespace Cert.GatedAttn.ColumnLayout

open Idealize.ShloMosaic Idealize.ShloMosaic.ValueIdx

variable {α : Type}

/-- A vector `[a]` cast to a column `[a, 1]` reads, at `(i, u)`, the vector's entry `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`: the unit axis reads `0`,
    the row axis its own coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GatedAttn.ColumnLayout
-- ==== Proof.Contract.lean ====
/-
  The kernel's two contractions and two row reductions, read at an index on the extended reals.

  * `[512,512] × [512,1024] → [512,1024]`, contracting the left operand's columns with the right operand's rows:
    entry `(d, t)` is `Σ_c l[d,c] · r[c,t]` (the three linear maps and the final product with the values);
  * `[512,1024] × [512,1024] → [512,512]`, contracting the two operands' second axes:
    entry `(c, d)` is `Σ_t l[c,t] · r[d,t]` (the energies);
  * the maximum and the sum of a row of a `[512,512]` array over its second axis.
  Each contraction accumulates into the zero array, so at the ideal values it is the bare sum.
-/
import proofs.«148842_j43928925504191_1_alg».proof.Proof.Gen.KernelIdeal
import Idealize.ShloMosaic.Lib.ValueIdx
import Idealize.ShloMosaic.PureOps.Ideal.Laws

noncomputable section

namespace Cert.KernelIdeal.Contract

open Cert.KernelIdeal Cert.KernelIdeal.Gen Idealize.ShloMosaic Idealize.ShloMosaic.ValueIdx

/-- Rows times columns: `[512,512] × [512,1024]`. -/
abbrev DA : DotDims S512x512 S512x1024 S512x1024 := dot_S512x512_S512x1024_S512x1024_1_0_0_1_n_n
/-- Rows times rows: `[512,1024] × [512,1024]` over the shared second axis. -/
abbrev DB : DotDims S512x1024 S512x1024 S512x512 := dot_S512x1024_S512x1024_S512x512_1_1_0_0_n_n

/-! ## Which operand entries an output entry contracts -/

theorem lhsA_0 (i : S512x1024.Idx) (q : DA.contr.Idx) : (DA.lhsIdx i q 0).val = (i 0).val := by
  unfold DotDims.lhsIdx
  rw [dif_neg (show ¬(0 : Fin S512x512.rank) ∈ DA.lhsBatch by decide), dif_pos (show (0 : Fin S512x512.rank) ∈ DA.lhsNonContracting by decide)]
  rfl
theorem lhsA_1 (i : S512x1024.Idx) (q : DA.contr.Idx) : (DA.lhsIdx i q 1).val = (q ⟨0, by decide⟩).val :=
  DA.lhsIdx_val_of_single rfl i q
theorem rhsA_0 (i : S512x1024.Idx) (q : DA.contr.Idx) : (DA.rhsIdx i q 0).val = (q ⟨0, by decide⟩).val :=
  DA.rhsIdx_val_of_single rfl i q
theorem rhsA_1 (i : S512x1024.Idx) (q : DA.contr.Idx) : (DA.rhsIdx i q 1).val = (i 1).val := by
  unfold DotDims.rhsIdx
  rw [dif_neg (show ¬(1 : Fin S512x1024.rank) ∈ DA.rhsBatch by decide), dif_pos (show (1 : Fin S512x1024.rank) ∈ DA.rhsNonContracting by decide)]
  rfl

theorem lhsB_0 (i : S512x512.Idx) (q : DB.contr.Idx) : (DB.lhsIdx i q 0).val = (i 0).val := by
  unfold DotDims.lhsIdx
  rw [dif_neg (show ¬(0 : Fin S512x1024.rank) ∈ DB.lhsBatch by decide), dif_pos (show (0 : Fin S512x1024.rank) ∈ DB.lhsNonContracting by decide)]
  rfl
theorem lhsB_1 (i : S512x512.Idx) (q : DB.contr.Idx) : (DB.lhsIdx i q 1).val = (q ⟨0, by decide⟩).val :=
  DB.lhsIdx_val_of_single rfl i q
theorem rhsB_0 (i : S512x512.Idx) (q : DB.contr.Idx) : (DB.rhsIdx i q 0).val = (i 1).val := by
  unfold DotDims.rhsIdx
  rw [dif_neg (show ¬(0 : Fin S512x1024.rank) ∈ DB.rhsBatch by decide), dif_pos (show (0 : Fin S512x1024.rank) ∈ DB.rhsNonContracting by decide)]
  rfl
theorem rhsB_1 (i : S512x512.Idx) (q : DB.contr.Idx) : (DB.rhsIdx i q 1).val = (q ⟨0, by decide⟩).val :=
  DB.rhsIdx_val_of_single rfl i q

/-! ## The contractions at an index -/

/-- Rows times columns into the zero array: entry `(d, t)` is `Σ_c l[d,c] · r[c,t]`. -/
theorem matmulA_apply {φ₁ φ₂ : FTy} (l : FVec Ideal S512x512 φ₁) (r : FVec Ideal S512x1024 φ₂) (d : Fin 512) (t : Fin 1024) :
    matmul dot_S512x512_S512x1024_S512x1024_1_0_0_1_n_n none l r (constant (F := Ideal) S512x1024 .f32 0x00000000#32) (ix2 d t)
      = ∑ c : Fin 512, l (ix2 d c) * r (ix2 c t) := by
  refine (Ideal.matmul_constant_zero_apply DA none l r (ix2 d t)).trans ?_
  rw [← Equiv.sum_comp (contrEquiv1 DA 512 rfl rfl).symm]
  refine Finset.sum_congr rfl fun k _ => ?_
  have hk := contrEquiv1_symm_val DA 512 rfl rfl k
  have el : DA.lhsIdx (ix2 d t) ((contrEquiv1 DA 512 rfl rfl).symm k) = ix2 d k := funext fun a => Fin.ext (by
    match a with
    | ⟨0, _⟩ => exact lhsA_0 _ _
    | ⟨1, _⟩ => exact (lhsA_1 _ _).trans hk)
  have er : DA.rhsIdx (ix2 d t) ((contrEquiv1 DA 512 rfl rfl).symm k) = ix2 k t := funext fun a => Fin.ext (by
    match a with
    | ⟨0, _⟩ => exact (rhsA_0 _ _).trans hk
    | ⟨1, _⟩ => exact rhsA_1 _ _)
  rw [el, er]

/-- Rows times rows into the zero array: entry `(c, d)` is `Σ_t l[c,t] · r[d,t]`. -/
theorem matmulB_apply {φ₁ φ₂ : FTy} (l : FVec Ideal S512x1024 φ₁) (r : FVec Ideal S512x1024 φ₂) (c d : Fin 512) :
    matmul dot_S512x1024_S512x1024_S512x512_1_1_0_0_n_n none l r (constant (F := Ideal) S512x512 .f32 0x00000000#32) (ix2 c d)
      = ∑ t : Fin 1024, l (ix2 c t) * r (ix2 d t) := by
  refine (Ideal.matmul_constant_zero_apply DB none l r (ix2 c d)).trans ?_
  rw [← Equiv.sum_comp (contrEquiv1 DB 1024 rfl rfl).symm]
  refine Finset.sum_congr rfl fun k _ => ?_
  have hk := contrEquiv1_symm_val DB 1024 rfl rfl k
  have el : DB.lhsIdx (ix2 c d) ((contrEquiv1 DB 1024 rfl rfl).symm k) = ix2 c k := funext fun a => Fin.ext (by
    match a with
    | ⟨0, _⟩ => exact lhsB_0 _ _
    | ⟨1, _⟩ => exact (lhsB_1 _ _).trans hk)
  have er : DB.rhsIdx (ix2 c d) ((contrEquiv1 DB 1024 rfl rfl).symm k) = ix2 d k := funext fun a => Fin.ext (by
    match a with
    | ⟨0, _⟩ => exact rhsB_0 _ _
    | ⟨1, _⟩ => exact (rhsB_1 _ _).trans hk)
  rw [el, er]

/-! ## The row reductions at an index -/

/-- A row index with a column put back is the entry `(c, k)`. -/
theorem lift_row (c : Fin 512) (k : Fin (S512x512.size 1)) :
    reduces_S512x512_S512.lift (ix1 c) k = ix2 c (⟨k.val, k.isLt⟩ : Fin 512) := by
  funext a; apply Fin.ext
  match a with
  | ⟨0, _⟩ => rfl
  | ⟨1, _⟩ => rfl

/-- The maximum over a row, folded from the accumulator's value. -/
theorem rowMaxRed_apply (src : FVec Ideal S512x512 .f32) (hφ : FKind.Formats .f32)
    (hacc : (0xFF800000#32 : BitVec 32) = FKind.maximumf.neutral .f32 hφ) (c : Fin 512) :
    multiReduction (F := Ideal) .maximumf [1] S512 src 0xFF800000#32 reduces_S512x512_S512 hφ hacc (ix1 c)
      = (Finset.univ : Finset (Fin 512)).fold max (Ideal.ofBits .f32 0xFF800000#32) (fun d => src (ix2 c d)) := by
  refine (Ideal.multiReduction_maximumf_single src 0xFF800000#32 reduces_S512x512_S512 hφ hacc (ix1 c)).trans ?_
  have hf : (src ∘ reduces_S512x512_S512.lift (ix1 c)) = fun d : Fin 512 => src (ix2 c d) :=
    funext fun k => congrArg src (lift_row c k)
  exact congrArg (fun f => Finset.fold max (Ideal.ofBits .f32 0xFF800000#32) f (Finset.univ : Finset (Fin 512))) hf

/-- The sum over a row. -/
theorem rowSumRed_apply (src : FVec Ideal S512x512 .f32) (hφ : FKind.Formats .f32)
    (hacc : (0x00000000#32 : BitVec 32) = FKind.add.neutral .f32 hφ) (c : Fin 512) :
    multiReduction (F := Ideal) .add [1] S512 src 0x00000000#32 reduces_S512x512_S512 hφ hacc (ix1 c)
      = ∑ d : Fin 512, src (ix2 c d) := by
  refine (Ideal.multiReduction_add_single src 0x00000000#32 reduces_S512x512_S512 hφ hacc (ix1 c)).trans ?_
  exact Finset.sum_congr rfl fun k _ => congrArg src (lift_row c k)

end Cert.KernelIdeal.Contract

end
-- ==== Proof.Payload.lean ====
/-
  One grid point of the kernel: the stored block, entry by entry, is the slab function `outS` of the blocks the body loads.

  The body casts the input block `[1,512,1024]` to a slab, forms the three linear maps `W · x` (rows times columns),
  adds each bias column broadcast over the positions and multiplies by the gate slab; contracts the query and key maps
  over the positions into the `512 × 512` energies and scales them; takes each row's softmax (row maximum kept as a
  column and broadcast back, exponentials of the differences, row sum kept as a column and broadcast back, quotient);
  and multiplies the attention matrix with the value map, rows times columns. Changes of float format are the identity
  at the ideal values, so every stage read at an index is the corresponding stage of the specification.
-/
import proofs.«148842_j43928925504191_1_alg».proof.Proof.Gen.KernelIdeal.Skeleton
import proofs.«148842_j43928925504191_1_alg».proof.Proof.Spec
import proofs.«148842_j43928925504191_1_alg».proof.Proof.LibColumnLayout
import proofs.«148842_j43928925504191_1_alg».proof.Proof.Contract
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Cert.KernelIdeal.Contract
open Idealize.ShloMosaic Idealize.ShloMosaic.ValueIdx Cert.GatedAttn Cert.GatedAttn.ColumnLayout

/-- A loaded block of a big array as a slab: its one leading coordinate is 0. -/
def blkSlab (x : Vec Ideal S1x512x1024 .f32) : Slab := fun c t => x (ix3 0 c t)
/-- A loaded weight matrix by row and column. -/
def blkMat (w : Vec Ideal S512x512 .f32) : Fin 512 → Fin 512 → EReal := fun d c => w (ix2 d c)
/-- A loaded bias column by entry: its one trailing coordinate is 0. -/
def blkCol (b : Vec Ideal S512x1 .f32) : Fin 512 → EReal := fun d => b (ix2 d 0)

/-! ## The linear maps -/

/-- The input block cast to a slab (and to the narrower format, which changes nothing). -/
theorem pay2_at (x0 : Vec Ideal S1x512x1024 .f32) (c : Fin 512) (t : Fin 1024) : k0_pay2 x0 (ix2 c t) = x0 (ix3 0 c t) :=
  shapeCast_1ab_ab_apply x0 shapeCasts_S1x512x1024_S512x1024 c t

/-- `W · x` at `(d, t)`: `Σ_c W[d,c] · x[c,t]`. -/
theorem lin_at (x0 : Vec Ideal S1x512x1024 .f32) (w : Vec Ideal S512x512 .f32) (d : Fin 512) (t : Fin 1024) :
    matmul dot_S512x512_S512x1024_S512x1024_1_0_0_1_n_n none (truncf .bf16 w bitsLt_bf16_f32) (k0_pay2 x0)
        (constant (F := Ideal) S512x1024 .f32 0x00000000#32) (ix2 d t)
      = ∑ c : Fin 512, w (ix2 d c) * x0 (ix3 0 c t) :=
  (matmulA_apply (truncf .bf16 w bitsLt_bf16_f32) (k0_pay2 x0) d t).trans
    (Finset.sum_congr rfl fun c _ => congrArg (w (ix2 d c) * ·) (pay2_at x0 c t))

/-- A bias column broadcast over the positions reads its row's entry. -/
theorem bias_at (b : Vec Ideal S512x1 .f32) (d : Fin 512) (t : Fin 1024) :
    broadcastTo S512x1024 (shapeCast S512x1 b shapeCasts_S512x1_S512x1) broadcasts_S512x1_S512x1024 (ix2 d t) = b (ix2 d 0) :=
  (broadcastTo_a1_ab_apply _ broadcasts_S512x1_S512x1024 d t).trans (congrFun (shapeCast_self b shapeCasts_S512x1_S512x1) _)

/-- The query map: gate times (linear map plus bias). -/
theorem pay3_at (x0 : Vec Ideal S1x512x1024 .f32) (w : Vec Ideal S512x512 .f32) (g : Vec Ideal S1x512x1024 .f32)
    (b : Vec Ideal S512x1 .f32) (d : Fin 512) (t : Fin 1024) :
    k0_pay3 x0 w g b (ix2 d t) = projS (blkSlab x0) (blkSlab g) (blkMat w) (blkCol b) d t :=
  congrArg₂ (· * ·) (shapeCast_1ab_ab_apply g shapeCasts_S1x512x1024_S512x1024 d t)
    (congrArg₂ (· + ·) (lin_at x0 w d t) (bias_at b d t))

/-- The key map: the same with its own weight, gate and bias. -/
theorem pay4_at (x0 : Vec Ideal S1x512x1024 .f32) (w : Vec Ideal S512x512 .f32) (g : Vec Ideal S1x512x1024 .f32)
    (b : Vec Ideal S512x1 .f32) (d : Fin 512) (t : Fin 1024) :
    k0_pay4 x0 w g b (ix2 d t) = projS (blkSlab x0) (blkSlab g) (blkMat w) (blkCol b) d t :=
  congrArg₂ (· * ·) (shapeCast_1ab_ab_apply g shapeCasts_S1x512x1024_S512x1024 d t)
    (congrArg₂ (· + ·) (lin_at x0 w d t) (bias_at b d t))

/-- The value map's linear part. -/
theorem pay5_at (x0 : Vec Ideal S1x512x1024 .f32) (w : Vec Ideal S512x512 .f32) (d : Fin 512) (t : Fin 1024) :
    k0_pay5 x0 w (ix2 d t) = ∑ c : Fin 512, w (ix2 d c) * x0 (ix3 0 c t) := lin_at x0 w d t

/-- The value gate block cast to a slab. -/
theorem pay6_at (g : Vec Ideal S1x512x1024 .f32) (d : Fin 512) (t : Fin 1024) : k0_pay6 g (ix2 d t) = g (ix3 0 d t) :=
  shapeCast_1ab_ab_apply g shapeCasts_S1x512x1024_S512x1024 d t

/-- The value bias column, cast to its own shape. -/
theorem pay7_at (b : Vec Ideal S512x1 .f32) (d : Fin 512) : k0_pay7 b (ix2 d 0) = b (ix2 d 0) :=
  congrFun (shapeCast_self b shapeCasts_S512x1_S512x1) _

/-! ## The energies, the row softmax and the value map, stage by stage -/

/-- The scaled energies of two maps. -/
def energyK (q k : FVec Ideal S512x1024 .bf16) : FVec Ideal S512x512 .f32 :=
  mulf (matmul dot_S512x1024_S512x1024_S512x512_1_1_0_0_n_n none q k (constant (F := Ideal) S512x512 .f32 0x00000000#32))
    (broadcast S512x512 (Scalar.ofBits (F := Ideal) .f32 0x3D3504F3#32))

theorem energyK_apply (q k : FVec Ideal S512x1024 .bf16) (c d : Fin 512) :
    energyK q k (ix2 c d) = (∑ t : Fin 1024, q (ix2 c t) * k (ix2 d t)) * scaleC :=
  congrArg (· * scaleC) (matmulB_apply q k c d)

/-- Each row's maximum, kept as a column and broadcast back over the row. -/
def rowMaxK (e : FVec Ideal S512x512 .f32) : FVec Ideal S512x512 .f32 :=
  broadcastTo S512x512
    (shapeCast S512x1
      (maximumf (broadcast S512 (Scalar.ofBits (F := Ideal) .f32 0xFF800000#32))
        (multiReduction (F := Ideal) .maximumf [1] S512 e 0xFF800000#32 reduces_S512x512_S512 (.inl rfl) rfl))
      shapeCasts_S512_S512x1)
    broadcasts_S512x1_S512x512

theorem rowMaxK_apply (e : FVec Ideal S512x512 .f32) (c d : Fin 512) :
    rowMaxK e (ix2 c d) = rowMax (fun d' => e (ix2 c d')) :=
  (broadcastTo_a1_ab_apply _ broadcasts_S512x1_S512x512 c d).trans
    ((shapeCast_a_a1_apply _ shapeCasts_S512_S512x1 c 0).trans
      (congrArg (max negInf ·) (rowMaxRed_apply e _ _ c)))

/-- The exponentials of the differences from the row maximum. -/
def expK (e : FVec Ideal S512x512 .f32) : FVec Ideal S512x512 .f32 := exp (subf e (rowMaxK e))

theorem expK_apply (e : FVec Ideal S512x512 .f32) (c d : Fin 512) :
    expK e (ix2 c d) = rowExp (fun d' => e (ix2 c d')) d :=
  congrArg (fun mx => Ideal.exp (e (ix2 c d) - mx)) (rowMaxK_apply e c d)

/-- Each row's sum of exponentials, kept as a column and broadcast back over the row. -/
def sumK (e : FVec Ideal S512x512 .f32) : FVec Ideal S512x512 .f32 :=
  broadcastTo S512x512
    (shapeCast S512x1
      (multiReduction (F := Ideal) .add [1] S512 (expK e) 0x00000000#32 reduces_S512x512_S512 (.inl rfl) rfl)
      shapeCasts_S512_S512x1)
    broadcasts_S512x1_S512x512

theorem sumK_apply (e : FVec Ideal S512x512 .f32) (c d : Fin 512) :
    sumK e (ix2 c d) = ∑ d' : Fin 512, rowExp (fun d'' => e (ix2 c d'')) d' :=
  (broadcastTo_a1_ab_apply _ broadcasts_S512x1_S512x512 c d).trans
    ((shapeCast_a_a1_apply _ shapeCasts_S512_S512x1 c 0).trans
      ((rowSumRed_apply (expK e) _ _ c).trans (Finset.sum_congr rfl fun d' _ => expK_apply e c d')))

/-- The row softmax. -/
def smK (e : FVec Ideal S512x512 .f32) : FVec Ideal S512x512 .f32 := divf (expK e) (sumK e)

theorem smK_apply (e : FVec Ideal S512x512 .f32) (c d : Fin 512) :
    smK e (ix2 c d) = softmax (fun d' => e (ix2 c d')) d :=
  congrArg₂ Ideal.div (expK_apply e c d) (sumK_apply e c d)

/-- The value map: gate times (linear part plus bias column broadcast over the positions). -/
def valK (lin gate : FVec Ideal S512x1024 .f32) (bias : FVec Ideal S512x1 .f32) : FVec Ideal S512x1024 .f32 :=
  mulf gate (addf lin (broadcastTo S512x1024 bias broadcasts_S512x1_S512x1024))

theorem valK_apply (lin gate : FVec Ideal S512x1024 .f32) (bias : FVec Ideal S512x1 .f32) (d : Fin 512) (t : Fin 1024) :
    valK lin gate bias (ix2 d t) = gate (ix2 d t) * (lin (ix2 d t) + bias (ix2 d 0)) :=
  congrArg (fun z => gate (ix2 d t) * (lin (ix2 d t) + z)) (broadcastTo_a1_ab_apply bias broadcasts_S512x1_S512x1024 d t)

/-- The stored value is the attention matrix times the value map, cast back to a block of one slab. -/
theorem pay1_eq (v13 v24 : FVec Ideal S512x1024 .bf16) (v27 v29 : FVec Ideal S512x1024 .f32) (v31 : FVec Ideal S512x1 .f32) :
    k0_pay1 v13 v24 v27 v29 v31
      = shapeCast S1x512x1024
          (matmul dot_S512x512_S512x1024_S512x1024_1_0_0_1_n_n none (truncf .bf16 (smK (energyK v13 v24)) bitsLt_bf16_f32)
            (truncf .bf16 (valK v27 v29 v31) bitsLt_bf16_f32) (constant (F := Ideal) S512x1024 .f32 0x00000000#32))
          shapeCasts_S512x1024_S1x512x1024 := rfl

/-- The stored block at `(c, t)` from the query and key maps, the value map's linear part, gate and bias. -/
theorem pay1_at (v13 v24 : FVec Ideal S512x1024 .bf16) (v27 v29 : FVec Ideal S512x1024 .f32) (v31 : FVec Ideal S512x1 .f32)
    (c : Fin 512) (t : Fin 1024) :
    k0_pay1 v13 v24 v27 v29 v31 (ix3 0 c t)
      = ∑ d : Fin 512, softmax (fun d' => (∑ t' : Fin 1024, v13 (ix2 c t') * v24 (ix2 d' t')) * scaleC) d
          * (v29 (ix2 d t) * (v27 (ix2 d t) + v31 (ix2 d 0))) := by
  rw [pay1_eq]
  refine (shapeCast_ab_1ab_apply _ shapeCasts_S512x1024_S1x512x1024 0 c t).trans ?_
  refine (matmulA_apply _ _ c t).trans ?_
  refine Finset.sum_congr rfl fun d _ => ?_
  refine congrArg₂ (· * ·) ?_ (valK_apply v27 v29 v31 d t)
  refine (smK_apply (energyK v13 v24) c d).trans ?_
  exact congrArg (fun r => softmax r d) (funext fun d' => energyK_apply v13 v24 c d')

/-! ## The whole payload -/

/-- The stored block at channel `c`, position `t` is the slab function of the ten loaded blocks. -/
theorem payload_eq (x0 x1 x2 x3 : Vec Ideal S1x512x1024 .f32) (w4 w5 w6 : Vec Ideal S512x512 .f32)
    (b7 b8 b9 : Vec Ideal S512x1 .f32) (c : Fin 512) (t : Fin 1024) :
    k0_pay1 (k0_pay3 x0 w4 x1 b7) (k0_pay4 x0 w5 x2 b8) (k0_pay5 x0 w6) (k0_pay6 x3) (k0_pay7 b9) (ix3 0 c t)
      = outS (blkSlab x0) (blkSlab x1) (blkSlab x2) (blkSlab x3) (blkMat w4) (blkCol b7) (blkMat w5) (blkCol b8)
          (blkMat w6) (blkCol b9) c t := by
  refine (pay1_at _ _ _ _ _ c t).trans ?_
  unfold outS
  refine Finset.sum_congr rfl fun d _ => ?_
  refine congrArg₂ (· * ·) ?_ ?_
  · refine congrArg (fun r => softmax r d) (funext fun d' => ?_)
    unfold energyS
    exact congrArg (· * scaleC) (Finset.sum_congr rfl fun t' _ =>
      congrArg₂ (· * ·) (pay3_at x0 w4 x1 b7 c t') (pay4_at x0 w5 x2 b8 d' t'))
  · exact congrArg₂ (· * ·) (pay6_at x3 d t) (congrArg₂ (· + ·) (pay5_at x0 w6 d t) (pay7_at b9 d))

end Cert.KernelIdeal.Payload

end
-- ==== Proof.Blocks.lean ====
/-
  From the 32 grid points' blocks to the whole result array: point `t` writes slab `t`, the slabs cover the array,
  so after the run the result array is `G` of the argument arrays.
-/
import proofs.«148842_j43928925504191_1_alg».proof.Proof.Gen.KernelIdeal.Value
import proofs.«148842_j43928925504191_1_alg».proof.Proof.Payload
import proofs.«148842_j43928925504191_1_alg».proof.Proof.Spec
import Idealize.ShloMosaic.Lib.Pipeline.Value
import Idealize.ShloMosaic.Lib.ValueIdx
import Idealize.ShloMosaic.Lib.StableHlo.Run

noncomputable section

namespace Cert.KernelIdeal.BlockValue

open Cert.KernelIdeal Cert.KernelIdeal.Gen Idealize.ShloMosaic Idealize.ShloMosaic.TcCoe Idealize.SL.Sem Cert.GatedAttn
open Idealize.ShloMosaic.ValueIdx

section Blocks

variable (m : (ℓ : Loc nD τ sig) → Buf (Elt Ideal) ℓ)

/-- The zero offsets of a rank-3 whole-buffer rectangle. -/
theorem hz3 : (![0, 0, 0] : Fin 3 → Nat) = fun _ => 0 := funext fun a => by fin_cases a <;> rfl
/-- The zero offsets of a rank-2 whole-buffer rectangle. -/
theorem hz2 : (![0, 0] : Fin 2 → Nat) = fun _ => 0 := funext fun a => by fin_cases a <;> rfl

/-- The index maps of the five slab windows (the input, the three gates, the result) over the grid: point `t` is at
    block index `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_10.index t (0 : Fin 3) = t.val ∧ win0_10.index t (1 : Fin 3) = 0 ∧ win0_10.index t (2 : Fin 3) = 0 :=
  (by decide +kernel : ∀ t : Fin grid0.N, _)

/-- The index maps of the six whole-array windows (three weight matrices, three bias columns) over the grid: every
    point is at block index `(0, 0)`. -/
theorem idx_facts_whole : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-! ## The ten input blocks at a grid point, as slabs, matrices and vectors of the argument arrays -/

/-- The input's block at grid point `t` is slab `t` of its array: block coordinate `(0, c, s)` is array index `(t, c, s)`. -/
theorem slab_blk0 (c : Dev nD) (t : Fin cfg0.N) (ht : t.val < 32) :
    Payload.blkSlab (iblk m c 0 t) = slab (m ((c : Thread nD τ).loc main_arg0)) ⟨t.val, ht⟩ := by
  obtain ⟨e0, e1, e2, -⟩ := idx_facts t
  funext c' t'
  show V m c main_arg0 (((cfg0.win 0).blk t).view.emb (ix3 0 c' t')) = m ((c : Thread nD τ).loc main_arg0) (ix3 ⟨t.val, ht⟩ c' t')
  rw [V_main_arg0]
  refine congrArg _ (funext fun a => Fin.ext ?_)
  match a with
  | ⟨0, _⟩ => show win0_0.index t (0 : Fin 3) * 1 + 1 * 0 = t.val; omega
  | ⟨1, _⟩ => show win0_0.index t (1 : Fin 3) * 512 + 1 * c'.val = c'.val; omega
  | ⟨2, _⟩ => show win0_0.index t (2 : Fin 3) * 1024 + 1 * t'.val = t'.val; omega

/-- The query gate's block at grid point `t` is slab `t` of its array: block coordinate `(0, c, s)` is array index `(t, c, s)`. -/
theorem slab_blk1 (c : Dev nD) (t : Fin cfg0.N) (ht : t.val < 32) :
    Payload.blkSlab (iblk m c 1 t) = slab (m ((c : Thread nD τ).loc main_arg1)) ⟨t.val, ht⟩ := by
  obtain ⟨-, -, -, e0, e1, e2, -⟩ := idx_facts t
  funext c' t'
  show V m c main_arg1 (((cfg0.win 1).blk t).view.emb (ix3 0 c' t')) = m ((c : Thread nD τ).loc main_arg1) (ix3 ⟨t.val, ht⟩ c' t')
  rw [V_main_arg1]
  refine congrArg _ (funext fun a => Fin.ext ?_)
  match a with
  | ⟨0, _⟩ => show win0_1.index t (0 : Fin 3) * 1 + 1 * 0 = t.val; omega
  | ⟨1, _⟩ => show win0_1.index t (1 : Fin 3) * 512 + 1 * c'.val = c'.val; omega
  | ⟨2, _⟩ => show win0_1.index t (2 : Fin 3) * 1024 + 1 * t'.val = t'.val; omega

/-- The key gate's block at grid point `t` is slab `t` of its array: block coordinate `(0, c, s)` is array index `(t, c, s)`. -/
theorem slab_blk2 (c : Dev nD) (t : Fin cfg0.N) (ht : t.val < 32) :
    Payload.blkSlab (iblk m c 2 t) = slab (m ((c : Thread nD τ).loc main_arg2)) ⟨t.val, ht⟩ := by
  obtain ⟨-, -, -, -, -, -, e0, e1, e2, -⟩ := idx_facts t
  funext c' t'
  show V m c main_arg2 (((cfg0.win 2).blk t).view.emb (ix3 0 c' t')) = m ((c : Thread nD τ).loc main_arg2) (ix3 ⟨t.val, ht⟩ c' t')
  rw [V_main_arg2]
  refine congrArg _ (funext fun a => Fin.ext ?_)
  match a with
  | ⟨0, _⟩ => show win0_2.index t (0 : Fin 3) * 1 + 1 * 0 = t.val; omega
  | ⟨1, _⟩ => show win0_2.index t (1 : Fin 3) * 512 + 1 * c'.val = c'.val; omega
  | ⟨2, _⟩ => show win0_2.index t (2 : Fin 3) * 1024 + 1 * t'.val = t'.val; omega

/-- The value gate's block at grid point `t` is slab `t` of its array: block coordinate `(0, c, s)` is array index `(t, c, s)`. -/
theorem slab_blk3 (c : Dev nD) (t : Fin cfg0.N) (ht : t.val < 32) :
    Payload.blkSlab (iblk m c 3 t) = slab (m ((c : Thread nD τ).loc main_arg3)) ⟨t.val, ht⟩ := by
  obtain ⟨-, -, -, -, -, -, -, -, -, e0, e1, e2, -⟩ := idx_facts t
  funext c' t'
  show V m c main_arg3 (((cfg0.win 3).blk t).view.emb (ix3 0 c' t')) = m ((c : Thread nD τ).loc main_arg3) (ix3 ⟨t.val, ht⟩ c' t')
  rw [V_main_arg3]
  refine congrArg _ (funext fun a => Fin.ext ?_)
  match a with
  | ⟨0, _⟩ => show win0_3.index t (0 : Fin 3) * 1 + 1 * 0 = t.val; omega
  | ⟨1, _⟩ => show win0_3.index t (1 : Fin 3) * 512 + 1 * c'.val = c'.val; omega
  | ⟨2, _⟩ => show win0_3.index t (2 : Fin 3) * 1024 + 1 * t'.val = t'.val; omega

/-- The query map's weight block at every grid point is the whole matrix. -/
theorem mat_blk4 (c : Dev nD) (t : Fin cfg0.N) :
    Payload.blkMat (iblk m c 4 t) = mat (m ((c : Thread nD τ).loc main_arg4)) := by
  obtain ⟨e0, e1, -⟩ := idx_facts_whole t
  funext d c'
  show V m c main_arg4 (((cfg0.win 4).blk t).view.emb (ix2 d c')) = m ((c : Thread nD τ).loc main_arg4) (ix2 d c')
  rw [V_main_arg4]
  refine congrArg _ (funext fun a => Fin.ext ?_)
  match a with
  | ⟨0, _⟩ => show win0_4.index t (0 : Fin 2) * 512 + 1 * d.val = d.val; omega
  | ⟨1, _⟩ => show win0_4.index t (1 : Fin 2) * 512 + 1 * c'.val = c'.val; omega

/-- The key map's weight block at every grid point is the whole matrix. -/
theorem mat_blk5 (c : Dev nD) (t : Fin cfg0.N) :
    Payload.blkMat (iblk m c 5 t) = mat (m ((c : Thread nD τ).loc main_arg6)) := by
  obtain ⟨-, -, e0, e1, -⟩ := idx_facts_whole t
  funext d c'
  show V m c main_arg6 (((cfg0.win 5).blk t).view.emb (ix2 d c')) = m ((c : Thread nD τ).loc main_arg6) (ix2 d c')
  rw [V_main_arg6]
  refine congrArg _ (funext fun a => Fin.ext ?_)
  match a with
  | ⟨0, _⟩ => show win0_5.index t (0 : Fin 2) * 512 + 1 * d.val = d.val; omega
  | ⟨1, _⟩ => show win0_5.index t (1 : Fin 2) * 512 + 1 * c'.val = c'.val; omega

/-- The value map's weight block at every grid point is the whole matrix. -/
theorem mat_blk6 (c : Dev nD) (t : Fin cfg0.N) :
    Payload.blkMat (iblk m c 6 t) = mat (m ((c : Thread nD τ).loc main_arg8)) := by
  obtain ⟨-, -, -, -, e0, e1, -⟩ := idx_facts_whole t
  funext d c'
  show V m c main_arg8 (((cfg0.win 6).blk t).view.emb (ix2 d c')) = m ((c : Thread nD τ).loc main_arg8) (ix2 d c')
  rw [V_main_arg8]
  refine congrArg _ (funext fun a => Fin.ext ?_)
  match a with
  | ⟨0, _⟩ => show win0_6.index t (0 : Fin 2) * 512 + 1 * d.val = d.val; omega
  | ⟨1, _⟩ => show win0_6.index t (1 : Fin 2) * 512 + 1 * c'.val = c'.val; omega

/-- When the grid starts, the query map's bias column holds the bias vector reshaped from 512 entries to 512 × 1. -/
theorem v0_eq (c : Dev nD) : (V m c main_v0 : S512x1.Idx → EReal)
    = shapeCast S512x1 (m ((c : Thread nD τ).loc main_arg5)) shapeCasts_S512_S512x1 := by
  dsimp only [Gen.V, Gen.hostOps0]
  after_results
  rfl

/-- When the grid starts, the key map's bias column holds the bias vector reshaped from 512 entries to 512 × 1. -/
theorem v1_eq (c : Dev nD) : (V m c main_v1 : S512x1.Idx → EReal)
    = shapeCast S512x1 (m ((c : Thread nD τ).loc main_arg7)) shapeCasts_S512_S512x1 := by
  dsimp only [Gen.V, Gen.hostOps0]
  after_results
  rfl

/-- When the grid starts, the value map's bias column holds the bias vector reshaped from 512 entries to 512 × 1. -/
theorem v2_eq (c : Dev nD) : (V m c main_v2 : S512x1.Idx → EReal)
    = shapeCast S512x1 (m ((c : Thread nD τ).loc main_arg9)) shapeCasts_S512_S512x1 := by
  dsimp only [Gen.V, Gen.hostOps0]
  after_results
  rfl

/-- The query map's bias block at every grid point, read at `(d, 0)`, is entry `d` of the bias vector: both have row-major
    position `d`. -/
theorem col_blk7 (c : Dev nD) (t : Fin cfg0.N) :
    Payload.blkCol (iblk m c 7 t) = vec (m ((c : Thread nD τ).loc main_arg5)) := by
  obtain ⟨-, -, -, -, -, -, e0, e1, -⟩ := idx_facts_whole t
  funext d
  show V m c main_v0 (((cfg0.win 7).blk t).view.emb (ix2 d 0)) = m ((c : Thread nD τ).loc main_arg5) (ix1 d)
  rw [v0_eq]
  refine shapeCast_apply _ _ _ (ix1 d) ?_
  rw [Shape.rowMajor_val_one, Shape.rowMajor_val_two]
  show d.val = (win0_7.index t (0 : Fin 2) * 512 + 1 * d.val) * 1 + (win0_7.index t (1 : Fin 2) * 1 + 1 * 0)
  omega

/-- The key map's bias block at every grid point, read at `(d, 0)`, is entry `d` of the bias vector: both have row-major
    position `d`. -/
theorem col_blk8 (c : Dev nD) (t : Fin cfg0.N) :
    Payload.blkCol (iblk m c 8 t) = vec (m ((c : Thread nD τ).loc main_arg7)) := by
  obtain ⟨-, -, -, -, -, -, -, -, e0, e1, -⟩ := idx_facts_whole t
  funext d
  show V m c main_v1 (((cfg0.win 8).blk t).view.emb (ix2 d 0)) = m ((c : Thread nD τ).loc main_arg7) (ix1 d)
  rw [v1_eq]
  refine shapeCast_apply _ _ _ (ix1 d) ?_
  rw [Shape.rowMajor_val_one, Shape.rowMajor_val_two]
  show d.val = (win0_8.index t (0 : Fin 2) * 512 + 1 * d.val) * 1 + (win0_8.index t (1 : Fin 2) * 1 + 1 * 0)
  omega

/-- The value map's bias block at every grid point, read at `(d, 0)`, is entry `d` of the bias vector: both have row-major
    position `d`. -/
theorem col_blk9 (c : Dev nD) (t : Fin cfg0.N) :
    Payload.blkCol (iblk m c 9 t) = vec (m ((c : Thread nD τ).loc main_arg9)) := by
  obtain ⟨-, -, -, -, -, -, -, -, -, -, e0, e1⟩ := idx_facts_whole t
  funext d
  show V m c main_v2 (((cfg0.win 9).blk t).view.emb (ix2 d 0)) = m ((c : Thread nD τ).loc main_arg9) (ix1 d)
  rw [v2_eq]
  refine shapeCast_apply _ _ _ (ix1 d) ?_
  rw [Shape.rowMajor_val_one, Shape.rowMajor_val_two]
  show d.val = (win0_9.index t (0 : Fin 2) * 512 + 1 * d.val) * 1 + (win0_9.index t (1 : Fin 2) * 1 + 1 * 0)
  omega

/-! ## What a grid point writes back, the cover, and the array after the run -/

/-- A function on the block's index set is determined by its values at `(0, c, t)`. -/
theorem blk_funext {f g : S1x512x1024.Idx → EReal} (h : ∀ (c : Fin 512) (t : Fin 1024), f (ix3 0 c t) = g (ix3 0 c t)) : f = g := by
  funext j
  have hj : j = ix3 (0 : Fin 1) (j 1) (j 2) := by
    funext a
    match a with
    | ⟨0, _⟩ => exact Subsingleton.elim (α := Fin 1) _ _
    | ⟨1, _⟩ => rfl
    | ⟨2, _⟩ => rfl
  rw [hj]; exact h _ _

/-- The result window's block at grid point `t` sits at slab `t` of the array. -/
theorem emb_blk10 (t : Fin cfg0.N) (ht : t.val < 32) (c' : Fin 512) (t' : Fin 1024) :
    ((cfg0.win 10).blk t).view.emb (ix3 0 c' t') = ix3 (⟨t.val, ht⟩ : Fin 32) c' t' := by
  obtain ⟨-, -, -, -, -, -, -, -, -, -, -, -, e0, e1, e2⟩ := idx_facts t
  funext a; apply Fin.ext
  match a with
  | ⟨0, _⟩ => show win0_10.index t (0 : Fin 3) * 1 + 1 * 0 = t.val; omega
  | ⟨1, _⟩ => show win0_10.index t (1 : Fin 3) * 512 + 1 * c'.val = c'.val; omega
  | ⟨2, _⟩ => show win0_10.index t (2 : Fin 3) * 1024 + 1 * t'.val = t'.val; omega

/-- What grid point `t` writes back is block `t` of `G` of the argument arrays. -/
theorem flushed_eq (c : Dev nD) (t : Fin cfg0.N) :
    (dats m 0 c).flushed 10 t = ((cfg0.win 10).blk t).view.read (Elt Ideal)
      (G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9))) := by
  have ht : t.val < 32 := by have h1 := t.isLt; have h2 : cfg0.N = 32 := N_0; omega
  rw [Value.flushed10]
  unfold out0_10
  rw [View.canon_unit_zero hz3]
  simp only [View.ld_unit_zero (S := S1x512x1024) hz3, View.ld_unit_zero (S := S512x512) hz2, View.ld_unit_zero (S := S512x1) hz2]
  refine blk_funext fun c' t' => ?_
  refine (Payload.payload_eq (iblk m c 0 t) (iblk m c 1 t) (iblk m c 2 t) (iblk m c 3 t) (iblk m c 4 t) (iblk m c 5 t)
    (iblk m c 6 t) (iblk m c 7 t) (iblk m c 8 t) (iblk m c 9 t) c' t').trans ?_
  rw [slab_blk0 m c t ht, slab_blk1 m c t ht, slab_blk2 m c t ht, slab_blk3 m c t ht, mat_blk4 m c t, mat_blk5 m c t,
    mat_blk6 m c t, col_blk7 m c t, col_blk8 m c t, col_blk9 m c t]
  show _ = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (((cfg0.win 10).blk t).view.emb (ix3 0 c' t'))
  rw [emb_blk10 t ht c' t', G_ix3]

/-- An index of the array is in grid point `t`'s block iff each coordinate is in the block's range on its axis. -/
theorem mem_blk10 (t : Fin cfg0.N) (i : S32x512x1024.Idx) :
    i ∈ ((cfg0.win 10).blk t).view.set ↔ ∀ a : Fin 3, win0_10.index t a * S1x512x1024.size a ≤ (i a).val
      ∧ (i a).val < win0_10.index t a * S1x512x1024.size a + S1x512x1024.size a := by
  show i ∈ ((View.whole main_v3).slice (win0_10.rect t)).set ↔ _
  rw [View.set_slice_whole, Rect.mem_set_unit]
  exact Iff.rfl

/-- The 32 slabs cover the array: index `(b, c, t)` lies in the block of grid point `b`. -/
theorem cover (i : S32x512x1024.Idx) :
    ∃ t : Fin cfg0.N, (cfg0.win 10).flush t = true ∧ i ∈ ((cfg0.win 10).blk t).view.set := by
  have hi0 : (i 0).val < 32 := (i 0).isLt
  have hi1 : (i 1).val < 512 := (i 1).isLt
  have hi2 : (i 2).val < 1024 := (i 2).isLt
  have hN : cfg0.N = 32 := N_0
  obtain ⟨t, htv⟩ : ∃ t : Fin cfg0.N, t.val = (i 0).val := ⟨⟨(i 0).val, by rw [hN]; exact hi0⟩, rfl⟩
  obtain ⟨-, -, -, -, -, -, -, -, -, -, -, -, e0, e1, e2⟩ := idx_facts t
  refine ⟨t, flush0_10 t, ?_⟩
  rw [mem_blk10]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 512 ≤ (i 1).val ∧ (i 1).val < win0_10.index t (1 : Fin 3) * 512 + 512; omega
  | ⟨2, _⟩ => show win0_10.index t (2 : Fin 3) * 1024 ≤ (i 2).val ∧ (i 2).val < win0_10.index t (2 : Fin 3) * 1024 + 1024; omega

/-- The result array after the run is `G` of the argument arrays. -/
theorem final (c : Dev nD) : (dats m 0 c).arrAt 10 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) :=
  (dats m 0 c).arrAt_eq_of_cover 10
    (G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)))
    (fun t _ => flushed_eq m c t) cover

end Blocks

/-- Every weakly fair execution of the kernel's program ends with the result array at `G` of the argument arrays
    as launched, and the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v3)
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run (defs (F := Ideal)) _ _).mono (fun r h c => ⟨(h c).1.trans (final m c), (h c).2⟩)
    (Value.run_blocks (F := Ideal) m ρ)

end Cert.KernelIdeal.BlockValue

end
-- ==== Proof.RefIsG.lean ====
/-
  The reference's result, read one operation at a time, is the function `G` of its ten arguments.

  The reference works on the slabs transposed (positions before channels) and multiplies the input by a weight where
  the specification multiplies the weight by the input; apart from that one commutation under the first sums, every
  stage of the reference is, at explicit coordinates, the stage of the specification with the same name: the three gated
  linear maps, the scaled energies, the row maximum, the exponentials, their sum, the quotient, the last contraction.
-/
import proofs.«148842_j43928925504191_1_alg».proof.Proof.Gen.ReferenceIdeal.Read
import proofs.«148842_j43928925504191_1_alg».proof.Proof.Spec
import Idealize.ShloMosaic.PureOps.Reduce

noncomputable section

namespace Cert.ReferenceIdeal.RefValue

open Cert.ReferenceIdeal Cert.ReferenceIdeal.Gen Idealize.ShloMosaic Idealize.ShloMosaic.ValueIdx Cert.GatedAttn

/-! ## The three gated linear maps -/

/-- The reference's first gated linear map at batch `b`, position `t`, channel `d` (it is stored positions first):
    the gate times the weighted sum of the input's channels plus the bias. The reference's products are input times
    weight; the specification's are weight times input. -/
theorem proj_at (x g : (⟨S32x512x1024, .f32⟩ : BufTy).Contents (Elt Ideal))
    (W : (⟨S512x512, .f32⟩ : BufTy).Contents (Elt Ideal)) (v : (⟨S512, .f32⟩ : BufTy).Contents (Elt Ideal))
    (b : Fin 32) (t : Fin 1024) (d : Fin 512) :
    Read.val_main_v8 (F := Ideal) x g W v (ix3 b t d) = projS (slab x b) (slab g b) (mat W) (vec v) d t := by
  rw [Read.val_main_v8_apply, Read.val_main_v7_apply, Read.val_main_v1_apply, Read.val_main_v4_apply,
    Read.val_main_v6_apply, Read.val_main_v5_apply]
  simp only [Ideal.mulf_def, Ideal.addf_def, projS, slab, mat, vec]
  refine congrArg₂ (· * ·) (congrArg g ?_) (congrArg₂ (· + ·) (Finset.sum_congr rfl fun k _ => ?_) (congrArg v ?_))
  · exact funext fun a => Fin.ext (by match a with | ⟨0, _⟩ => rfl | ⟨1, _⟩ => rfl | ⟨2, _⟩ => rfl)
  · rw [Read.val_main_v0_apply, mul_comm]
    refine congrArg₂ (· * ·) (congrArg W ?_) (congrArg x ?_)
    · exact funext fun a => Fin.ext (by match a with | ⟨0, _⟩ => rfl | ⟨1, _⟩ => rfl)
    · exact funext fun a => Fin.ext (by match a with | ⟨0, _⟩ => rfl | ⟨1, _⟩ => rfl | ⟨2, _⟩ => rfl)
  · exact funext fun a => Fin.ext (by match a with | ⟨0, _⟩ => rfl)

/-- The second gated linear map is the same expression of its own gate, weight and bias. -/
theorem proj_at_k (x g : (⟨S32x512x1024, .f32⟩ : BufTy).Contents (Elt Ideal))
    (W : (⟨S512x512, .f32⟩ : BufTy).Contents (Elt Ideal)) (v : (⟨S512, .f32⟩ : BufTy).Contents (Elt Ideal))
    (b : Fin 32) (t : Fin 1024) (d : Fin 512) :
    Read.val_main_v13 (F := Ideal) x g W v (ix3 b t d) = projS (slab x b) (slab g b) (mat W) (vec v) d t :=
  proj_at x g W v b t d

/-- The third gated linear map is the same expression of its own gate, weight and bias. -/
theorem proj_at_v (x g : (⟨S32x512x1024, .f32⟩ : BufTy).Contents (Elt Ideal))
    (W : (⟨S512x512, .f32⟩ : BufTy).Contents (Elt Ideal)) (v : (⟨S512, .f32⟩ : BufTy).Contents (Elt Ideal))
    (b : Fin 32) (t : Fin 1024) (d : Fin 512) :
    Read.val_main_v18 (F := Ideal) x g W v (ix3 b t d) = projS (slab x b) (slab g b) (mat W) (vec v) d t :=
  proj_at x g W v b t d

/-! ## The energies and the softmax of each row -/

/-- The reference's scaled energy at batch `b`, channels `c` and `d`: the sum over the positions of the products of
    the first two maps, times the scale. -/
theorem e_at (x0 x1 x2 : (⟨S32x512x1024, .f32⟩ : BufTy).Contents (Elt Ideal))
    (x4 : (⟨S512x512, .f32⟩ : BufTy).Contents (Elt Ideal)) (x5 : (⟨S512, .f32⟩ : BufTy).Contents (Elt Ideal))
    (x6 : (⟨S512x512, .f32⟩ : BufTy).Contents (Elt Ideal)) (x7 : (⟨S512, .f32⟩ : BufTy).Contents (Elt Ideal))
    (b : Fin 32) (c d : Fin 512) :
    Read.val_main_v21 (F := Ideal) x0 x1 x2 x4 x5 x6 x7 (ix3 b c d) = energyS (projS (slab x0 b) (slab x1 b) (mat x4) (vec x5)) (projS (slab x0 b) (slab x2 b) (mat x6) (vec x7)) c d := by
  rw [Read.val_main_v21_apply, Read.val_main_v19_apply, Read.val_main_v20_apply, Read.val_main_cst_apply]
  simp only [Ideal.mulf_def, Ideal.ofBits_def, energyS]
  refine congrArg (· * scaleC) (Finset.sum_congr rfl fun k _ => ?_)
  have el : Read.lidx_main_v19 (ix3 b c d) k = ix3 b k c :=
    funext fun a => Fin.ext (by match a with | ⟨0, _⟩ => rfl | ⟨1, _⟩ => rfl | ⟨2, _⟩ => rfl)
  have er : Read.ridx_main_v19 (ix3 b c d) k = ix3 b k d :=
    funext fun a => Fin.ext (by match a with | ⟨0, _⟩ => rfl | ⟨1, _⟩ => rfl | ⟨2, _⟩ => rfl)
  exact congrArg₂ (· * ·) ((congrArg _ el).trans (proj_at x0 x1 x4 x5 b k c))
    ((congrArg _ er).trans (proj_at_k x0 x2 x6 x7 b k d))

/-- The row index `(b, c)` with the coordinate `k` of the reduced axis put back is `(b, c, k)`. -/
theorem lift_ix3 (h : S32x512x512.Reduces [2] S32x512) (b : Fin 32) (c : Fin 512) (k : Fin (S32x512x512.size 2)) :
    h.lift (ix2 b c) k = ix3 b c (⟨k.val, k.isLt⟩ : Fin 512) :=
  funext fun a => Fin.ext (by match a with | ⟨0, _⟩ => rfl | ⟨1, _⟩ => rfl | ⟨2, _⟩ => rfl)

/-- The reference's row maximum at `(b, c)`: the fold of `max` from −∞ over the row of energies, and once more `max`
    with −∞. -/
theorem max_at (x0 x1 x2 : (⟨S32x512x1024, .f32⟩ : BufTy).Contents (Elt Ideal))
    (x4 : (⟨S512x512, .f32⟩ : BufTy).Contents (Elt Ideal)) (x5 : (⟨S512, .f32⟩ : BufTy).Contents (Elt Ideal))
    (x6 : (⟨S512x512, .f32⟩ : BufTy).Contents (Elt Ideal)) (x7 : (⟨S512, .f32⟩ : BufTy).Contents (Elt Ideal))
    (b : Fin 32) (c : Fin 512) :
    Read.val_main_v24 (F := Ideal) x0 x1 x2 x4 x5 x6 x7 (ix2 b c) = rowMax (energyS (projS (slab x0 b) (slab x1 b) (mat x4) (vec x5)) (projS (slab x0 b) (slab x2 b) (mat x6) (vec x7)) c) := by
  have h : S32x512x512.Reduces [2] S32x512 := by decide
  rw [Read.val_main_v24_apply, Read.val_main_v23_apply, Read.val_main_cst_1_apply]
  unfold Read.val_main_v22
  rw [Host.reduce_eq_fold_single FloatOps.maximumf _ _ _ h]
  have hf : (Read.val_main_v21 (F := Ideal) x0 x1 x2 x4 x5 x6 x7 ∘ h.lift (ix2 b c))
      = fun k : Fin 512 => energyS (projS (slab x0 b) (slab x1 b) (mat x4) (vec x5)) (projS (slab x0 b) (slab x2 b) (mat x6) (vec x7)) c k :=
    funext fun k => (congrArg _ (lift_ix3 h b c k)).trans (e_at x0 x1 x2 x4 x5 x6 x7 b c ⟨k.val, k.isLt⟩)
  rw [hf]
  rfl

/-- The reference's exponential at `(b, c, d)`: of the energy less the row's maximum. -/
theorem p_at (x0 x1 x2 : (⟨S32x512x1024, .f32⟩ : BufTy).Contents (Elt Ideal))
    (x4 : (⟨S512x512, .f32⟩ : BufTy).Contents (Elt Ideal)) (x5 : (⟨S512, .f32⟩ : BufTy).Contents (Elt Ideal))
    (x6 : (⟨S512x512, .f32⟩ : BufTy).Contents (Elt Ideal)) (x7 : (⟨S512, .f32⟩ : BufTy).Contents (Elt Ideal))
    (b : Fin 32) (c d : Fin 512) :
    Read.val_main_v28 (F := Ideal) x0 x1 x2 x4 x5 x6 x7 (ix3 b c d) = rowExp (energyS (projS (slab x0 b) (slab x1 b) (mat x4) (vec x5)) (projS (slab x0 b) (slab x2 b) (mat x6) (vec x7)) c) d := by
  have ei : Read.idx_main_v25 (Read.idx_main_v26 (ix3 b c d)) = ix2 b c :=
    funext fun a => Fin.ext (by match a with | ⟨0, _⟩ => rfl | ⟨1, _⟩ => rfl)
  rw [Read.val_main_v28_apply, Read.val_main_v27_apply, Read.val_main_v26_apply, Read.val_main_v25_apply, e_at, ei, max_at]
  rfl

/-- The reference's row sum at `(b, c)`: from zero, the sum of the row's exponentials. -/
theorem z_at (x0 x1 x2 : (⟨S32x512x1024, .f32⟩ : BufTy).Contents (Elt Ideal))
    (x4 : (⟨S512x512, .f32⟩ : BufTy).Contents (Elt Ideal)) (x5 : (⟨S512, .f32⟩ : BufTy).Contents (Elt Ideal))
    (x6 : (⟨S512x512, .f32⟩ : BufTy).Contents (Elt Ideal)) (x7 : (⟨S512, .f32⟩ : BufTy).Contents (Elt Ideal))
    (b : Fin 32) (c : Fin 512) :
    Read.val_main_v29 (F := Ideal) x0 x1 x2 x4 x5 x6 x7 (ix2 b c) = ∑ d : Fin 512, rowExp (energyS (projS (slab x0 b) (slab x1 b) (mat x4) (vec x5)) (projS (slab x0 b) (slab x2 b) (mat x6) (vec x7)) c) d := by
  rw [Read.val_main_v29_apply, Read.val_main_cst_2_apply, Ideal.ofBits_def, Ideal.ofBits_zero_f32, zero_add]
  refine Finset.sum_congr rfl fun k _ => ?_
  have ei : Read.idx_main_v29 (ix2 b c) k = ix3 b c k :=
    funext fun a => Fin.ext (by match a with | ⟨0, _⟩ => rfl | ⟨1, _⟩ => rfl | ⟨2, _⟩ => rfl)
  rw [ei, p_at]

/-- The reference's attention weight at `(b, c, d)`: the exponential over the row's sum. -/
theorem a_at (x0 x1 x2 : (⟨S32x512x1024, .f32⟩ : BufTy).Contents (Elt Ideal))
    (x4 : (⟨S512x512, .f32⟩ : BufTy).Contents (Elt Ideal)) (x5 : (⟨S512, .f32⟩ : BufTy).Contents (Elt Ideal))
    (x6 : (⟨S512x512, .f32⟩ : BufTy).Contents (Elt Ideal)) (x7 : (⟨S512, .f32⟩ : BufTy).Contents (Elt Ideal))
    (b : Fin 32) (c d : Fin 512) :
    Read.val_main_v32 (F := Ideal) x0 x1 x2 x4 x5 x6 x7 (ix3 b c d) = softmax (energyS (projS (slab x0 b) (slab x1 b) (mat x4) (vec x5)) (projS (slab x0 b) (slab x2 b) (mat x6) (vec x7)) c) d := by
  have ei : Read.idx_main_v30 (Read.idx_main_v31 (ix3 b c d)) = ix2 b c :=
    funext fun a => Fin.ext (by match a with | ⟨0, _⟩ => rfl | ⟨1, _⟩ => rfl)
  rw [Read.val_main_v32_apply, Read.val_main_v31_apply, Read.val_main_v30_apply, p_at, ei, z_at]
  rfl

/-! ## The result -/
/-- The reference's last stage is `G` of the argument arrays. -/
theorem ref_eq_G (x0 x1 x2 x3 : (⟨S32x512x1024, .f32⟩ : BufTy).Contents (Elt Ideal))
    (x4 : (⟨S512x512, .f32⟩ : BufTy).Contents (Elt Ideal)) (x5 : (⟨S512, .f32⟩ : BufTy).Contents (Elt Ideal))
    (x6 : (⟨S512x512, .f32⟩ : BufTy).Contents (Elt Ideal)) (x7 : (⟨S512, .f32⟩ : BufTy).Contents (Elt Ideal))
    (x8 : (⟨S512x512, .f32⟩ : BufTy).Contents (Elt Ideal)) (x9 : (⟨S512, .f32⟩ : BufTy).Contents (Elt Ideal)) :
    Cert.ReferenceIdeal.Read.val_main_v33 (F := Ideal) x0 x1 x2 x3 x4 x5 x6 x7 x8 x9 = G x0 x1 x2 x3 x4 x5 x6 x7 x8 x9 := by
  funext i
  obtain ⟨b, c, t, rfl⟩ : ∃ (b : Fin 32) (c : Fin 512) (t : Fin 1024), i = ix3 b c t := ⟨i 0, i 1, i 2, eq_ix3 i⟩
  rw [G_ix3, Read.val_main_v33_apply]
  unfold outS
  refine Finset.sum_congr rfl fun k _ => ?_
  have el : Read.lidx_main_v33 (ix3 b c t) k = ix3 b c k :=
    funext fun a => Fin.ext (by match a with | ⟨0, _⟩ => rfl | ⟨1, _⟩ => rfl | ⟨2, _⟩ => rfl)
  have er : Read.ridx_main_v33 (ix3 b c t) k = ix3 b t k :=
    funext fun a => Fin.ext (by match a with | ⟨0, _⟩ => rfl | ⟨1, _⟩ => rfl | ⟨2, _⟩ => rfl)
  exact congrArg₂ (· * ·) ((congrArg _ el).trans (a_at x0 x1 x2 x4 x5 x6 x7 b c k))
    ((congrArg _ er).trans (proj_at_v x0 x3 x8 x9 b t k))

end Cert.ReferenceIdeal.RefValue

end
-- ==== Proof.lean ====
/-
  Gated channel attention, slab by slab, against its plain array reference, on the extended reals.

  For each of 32 slabs the kernel computes three gated linear maps q, k, v of the slab (each `g · (W · x + b)`), the
  512 × 512 energies `Σ_t q[c,t] · k[d,t]` times a fixed scale, a softmax of each row, and `Σ_d attn[c,d] · v[d,t]`;
  the reference computes the same through transposed arrays and batched contractions. Read at the ideal values the
  two differ only in the order of the two factors inside the linear maps' sums and in how the indices are laid out:
  both are the function `G` (Proof/Spec.lean). No step distributes, cancels or moves a factor across a sum, so the
  finiteness of the inputs is never used. The scale is the same bit pattern in both programs and is never evaluated.

  * the kernel's result array after its run is `G` of its arguments: one grid point's stored block is the slab
    function of the loaded blocks (Proof/Payload.lean), point `t` writes slab `t`, and the 32 slabs cover the array
    (Proof/Blocks.lean);
  * the reference's result, read one operation at a time, is `G` of its arguments (Proof/RefIsG.lean);
  * the three frames are the generated runs; the idealization rewrote nothing, so `preserves` is trivial.
-/
import proofs.«148842_j43928925504191_1_alg».proof.Defs
import proofs.«148842_j43928925504191_1_alg».proof.Proof.Gen.Kernel
import proofs.«148842_j43928925504191_1_alg».proof.Proof.Gen.Kernel.Skeleton
import proofs.«148842_j43928925504191_1_alg».proof.Proof.Gen.Kernel.Launch
import proofs.«148842_j43928925504191_1_alg».proof.Proof.Gen.Kernel.Points
import proofs.«148842_j43928925504191_1_alg».proof.Proof.Gen.Kernel.Frame
import proofs.«148842_j43928925504191_1_alg».proof.Proof.Gen.KernelIdeal
import proofs.«148842_j43928925504191_1_alg».proof.Proof.Gen.KernelIdeal.Skeleton
import proofs.«148842_j43928925504191_1_alg».proof.Proof.Gen.KernelIdeal.Launch
import proofs.«148842_j43928925504191_1_alg».proof.Proof.Gen.KernelIdeal.Points
import proofs.«148842_j43928925504191_1_alg».proof.Proof.Gen.KernelIdeal.Frame
import proofs.«148842_j43928925504191_1_alg».proof.Proof.Gen.ReferenceIdeal
import proofs.«148842_j43928925504191_1_alg».proof.Proof.Gen.Pre_finite_inputs
import proofs.«148842_j43928925504191_1_alg».proof.Proof.Gen.KernelIdeal.Value
import proofs.«148842_j43928925504191_1_alg».proof.Proof.Gen.ReferenceIdeal.Run
import proofs.«148842_j43928925504191_1_alg».proof.Proof.Gen.ReferenceIdeal.Read
import proofs.«148842_j43928925504191_1_alg».proof.Proof.Spec
import proofs.«148842_j43928925504191_1_alg».proof.Proof.Payload
import proofs.«148842_j43928925504191_1_alg».proof.Proof.Blocks
import proofs.«148842_j43928925504191_1_alg».proof.Proof.RefIsG
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does the kernel read at the ideal values. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the ten arguments both programs end with the result array at `G` of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.BlockValue.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.ref_eq_G,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
